-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S64 .f32) (main_arg6 : FVec F S64x1 .f32) (main_arg7 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x1 .f32 := Host.absf main_arg6
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x128 .f32) (main_arg1 : IVec S2x3200000 32) (main_arg2 : FVec F S128x64 .f32) (main_arg3 : FVec F S64 .f32) (main_arg4 : FVec F S64x64 .f32) (main_arg5 : FVec F S64 .f32) (main_arg6 : FVec F S64x1 .f32) (main_arg7 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S10000x128 : Shape := ⟨2, ![10000, 128]⟩
abbrev S10000x64 : Shape := ⟨2, ![10000, 64]⟩
abbrev S3300000x64 : Shape := ⟨2, ![3300000, 64]⟩
abbrev S1x64 : Shape := ⟨2, ![1, 64]⟩
abbrev S1x1 : Shape := ⟨2, ![1, 1]⟩
abbrev S100000x1 : Shape := ⟨2, ![100000, 1]⟩
abbrev S10000x1 : Shape := ⟨2, ![10000, 1]⟩

abbrev nBuf : Space → Nat
  | .hbm => 86
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S1x3200000, .i32⟩
  | .hbm, ⟨9, _⟩ => ⟨S3200000, .i32⟩
  | .hbm, ⟨10, _⟩ => ⟨S1x3200000, .i32⟩
  | .hbm, ⟨11, _⟩ => ⟨S3200000, .i32⟩
  | .hbm, ⟨12, _⟩ => ⟨S100000, .i32⟩
  | .hbm, ⟨13, _⟩ => ⟨S3300000, .i32⟩
  | .hbm, ⟨14, _⟩ => ⟨S3300000, .i32⟩
  | .hbm, ⟨15, _⟩ => ⟨S_, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S_, .i32⟩
  | .hbm, ⟨39, _⟩ => ⟨S3300000, .i32⟩
  | .hbm, ⟨40, _⟩ => ⟨S3300000, .i1⟩
  | .hbm, ⟨41, _⟩ => ⟨S_, .i32⟩
  | .hbm, ⟨42, _⟩ => ⟨S3300000, .i32⟩
  | .hbm, ⟨43, _⟩ => ⟨S3300000, .i32⟩
  | .hbm, ⟨44, _⟩ => ⟨S3300000, .i32⟩
  | .hbm, ⟨45, _⟩ => ⟨S3300000x1, .i32⟩
  | .hbm, ⟨46, _⟩ => ⟨S3300000, .f32⟩
  | .hbm, ⟨47, _⟩ => ⟨S3300000, .f32⟩
  | .hbm, ⟨48, _⟩ => ⟨S100000x64, .f32⟩
  | .hbm, ⟨49, _⟩ => ⟨S_, .i32⟩
  | .hbm, ⟨50, _⟩ => ⟨S3300000, .i32⟩
  | .hbm, ⟨51, _⟩ => ⟨S3300000, .i1⟩
  | .hbm, ⟨52, _⟩ => ⟨S_, .i32⟩
  | .hbm, ⟨53, _⟩ => ⟨S3300000, .i32⟩
  | .hbm, ⟨54, _⟩ => ⟨S3300000, .i32⟩
  | .hbm, ⟨55, _⟩ => ⟨S3300000, .i32⟩
  | .hbm, ⟨56, _⟩ => ⟨S3300000x1, .i32⟩
  | .hbm, ⟨57, _⟩ => ⟨S3300000x64, .f32⟩
  | .hbm, ⟨58, _⟩ => ⟨S3300000x1, .f32⟩
  | .hbm, ⟨59, _⟩ => ⟨S3300000x64, .f32⟩
  | .hbm, ⟨60, _⟩ => ⟨S3300000x64, .f32⟩
  | .hbm, ⟨61, _⟩ => ⟨S_, .f32⟩
  | .hbm, ⟨62, _⟩ => ⟨S100000x64, .f32⟩
  | .hbm, ⟨63, _⟩ => ⟨S3300000x1, .i32⟩
  | .hbm, ⟨64, _⟩ => ⟨S100000x64, .f32⟩
  | .hbm, ⟨65, _⟩ => ⟨S1x64, .f32⟩
  | .hbm, ⟨66, _⟩ => ⟨S100000x64, .f32⟩
  | .hbm, ⟨67, _⟩ => ⟨S_, .i32⟩
  | .hbm, ⟨68, _⟩ => ⟨S3300000, .i32⟩
  | .hbm, ⟨69, _⟩ => ⟨S3300000, .i1⟩
  | .hbm, ⟨70, _⟩ => ⟨S_, .i32⟩
  | .hbm, ⟨71, _⟩ => ⟨S3300000, .i32⟩
  | .hbm, ⟨72, _⟩ => ⟨S3300000, .i32⟩
  | .hbm, ⟨73, _⟩ => ⟨S3300000, .i32⟩
  | .hbm, ⟨74, _⟩ => ⟨S3300000x1, .i32⟩
  | .hbm, ⟨75, _⟩ => ⟨S3300000x64, .f32⟩
  | .hbm, ⟨76, _⟩ => ⟨S3300000x1, .f32⟩
  | .hbm, ⟨77, _⟩ => ⟨S3300000x64, .f32⟩
  | .hbm, ⟨78, _⟩ => ⟨S3300000x64, .f32⟩
  | .hbm, ⟨79, _⟩ => ⟨S_, .f32⟩
  | .hbm, ⟨80, _⟩ => ⟨S100000x64, .f32⟩
  | .hbm, ⟨81, _⟩ => ⟨S3300000x1, .i32⟩
  | .hbm, ⟨82, _⟩ => ⟨S100000x64, .f32⟩
  | .hbm, ⟨83, _⟩ => ⟨S1x64, .f32⟩
  | .hbm, ⟨84, _⟩ => ⟨S1x1, .f32⟩
  | .hbm, ⟨85, _⟩ => ⟨S100000x1, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S64x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S1x64, .f32⟩
  | .local _ .vmem, ⟨14, _⟩ => ⟨S64x1, .f32⟩
  | .local _ .vmem, ⟨15, _⟩ => ⟨S1x1, .f32⟩
  | .local _ .vmem, ⟨16, _⟩ => ⟨S10000x1, .f32⟩
  | .local _ .vmem, ⟨17, _⟩ => ⟨S10000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_9 : Ref sig .tc := ⟨.hbm, 67, rfl⟩
abbrev main_v46 : Ref sig .tc := ⟨.hbm, 68, rfl⟩
abbrev main_v47 : Ref sig .tc := ⟨.hbm, 69, rfl⟩
abbrev main_c_10 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem4_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S10000x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  shapeCasts_S1_S1x1 : S1.ShapeCasts S1x1
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x128_S128x64_S10000x64_1_0_0_1_n_n_wf : DotDims.WF S10000x128 S128x64 S10000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S10000x64_S64x64_S10000x64_1_0_0_1_n_n_wf : DotDims.WF S10000x64 S64x64 S10000x64 [1] [0] [0] [1] [] []
  dot_S10000x64_S64x1_S10000x1_1_0_0_1_n_n_wf : DotDims.WF S10000x64 S64x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x1.size a ≤ S64x1.size a
  hwx2_2 : ∀ i : grid2.Coords, EltTy.bits .f32 = 32 ∨ (Rect.block (s := S64x1) S64x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x1.size a ≤ S100000x1.size a
  hwx2_4 : ∀ i : grid2.Coords, EltTy.bits .f32 = 32 ∨ (Rect.block (s := S100000x1) S10000x1.size (cc2_transform_4 i) (hinb2_4 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x1_S10000x1_1_0_0_1_n_n : DotDims S10000x64 S64x1 S10000x1 where
  lhsContracting := [1]
  rhsContracting := [0]
  lhsNonContracting := [0]
  rhsNonContracting := [1]
  lhsBatch := []
  rhsBatch := []
  wf := dot_S10000x64_S64x1_S10000x1_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S64x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S1x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v61) S10000x1.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S3300000x64 : Shape := ⟨2, ![3300000, 64]⟩
abbrev S1x64 : Shape := ⟨2, ![1, 64]⟩
abbrev S100000x1 : Shape := ⟨2, ![100000, 1]⟩
abbrev S1x1 : Shape := ⟨2, ![1, 1]⟩

abbrev nBuf : Space → Nat
  | .hbm => 138
  | .vmem => 0
  | .smem => 0
  | _ => 0

abbrev hbmTy0_0 (i : Nat) : BufTy := match i % 128 with
  | 0 => ⟨S100000x128, .f32⟩
  | 1 => ⟨S2x3200000, .i32⟩
  | 2 => ⟨S128x64, .f32⟩
  | 3 => ⟨S64, .f32⟩
  | 4 => ⟨S64x64, .f32⟩
  | 5 => ⟨S64, .f32⟩
  | 6 => ⟨S64x1, .f32⟩
  | 7 => ⟨S1, .f32⟩
  | 8 => ⟨S1x3200000, .i32⟩
  | 9 => ⟨S3200000, .i32⟩
  | 10 => ⟨S1x3200000, .i32⟩
  | 11 => ⟨S3200000, .i32⟩
  | 12 => ⟨S100000, .i32⟩
  | 13 => ⟨S3300000, .i32⟩
  | 14 => ⟨S3300000, .i32⟩
  | 15 => ⟨S_, .f32⟩
  | 16 => ⟨S3300000, .f32⟩
  | 17 => ⟨S_, .f32⟩
  | 18 => ⟨S100000, .f32⟩
  | 19 => ⟨S3300000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S3300000, .i32⟩
  | 31 => ⟨S3300000, .i1⟩
  | 32 => ⟨S_, .i32⟩
  | 33 => ⟨S3300000, .i32⟩
  | 34 => ⟨S3300000, .i32⟩
  | 35 => ⟨S3300000, .i32⟩
  | 36 => ⟨S3300000x1, .i32⟩
  | 37 => ⟨S3300000, .f32⟩
  | 38 => ⟨S_, .i32⟩
  | 39 => ⟨S3300000, .i32⟩
  | 40 => ⟨S3300000, .i1⟩
  | 41 => ⟨S_, .i32⟩
  | 42 => ⟨S3300000, .i32⟩
  | 43 => ⟨S3300000, .i32⟩
  | 44 => ⟨S3300000, .i32⟩
  | 45 => ⟨S3300000x1, .i32⟩
  | 46 => ⟨S3300000, .f32⟩
  | 47 => ⟨S3300000, .f32⟩
  | 48 => ⟨S100000x64, .f32⟩
  | 49 => ⟨S_, .i32⟩
  | 50 => ⟨S3300000, .i32⟩
  | 51 => ⟨S3300000, .i1⟩
  | 52 => ⟨S_, .i32⟩
  | 53 => ⟨S3300000, .i32⟩
  | 54 => ⟨S3300000, .i32⟩
  | 55 => ⟨S3300000, .i32⟩
  | 56 => ⟨S3300000x1, .i32⟩
  | 57 => ⟨S3300000x64, .f32⟩
  | 58 => ⟨S3300000x1, .f32⟩
  | 59 => ⟨S3300000x64, .f32⟩
  | 60 => ⟨S3300000x64, .f32⟩
  | 61 => ⟨S_, .f32⟩
  | 62 => ⟨S100000x64, .f32⟩
  | 63 => ⟨S3300000x1, .i32⟩
  | 64 => ⟨S100000x64, .f32⟩
  | 65 => ⟨S1x64, .f32⟩
  | 66 => ⟨S100000x64, .f32⟩
  | 67 => ⟨S100000x64, .f32⟩
  | 68 => ⟨S_, .f32⟩
  | 69 => ⟨S100000x64, .f32⟩
  | 70 => ⟨S100000x64, .f32⟩
  | 71 => ⟨S1x3200000, .i32⟩
  | 72 => ⟨S3200000, .i32⟩
  | 73 => ⟨S1x3200000, .i32⟩
  | 74 => ⟨S3200000, .i32⟩
  | 75 => ⟨S100000, .i32⟩
  | 76 => ⟨S3300000, .i32⟩
  | 77 => ⟨S3300000, .i32⟩
  | 78 => ⟨S_, .f32⟩
  | 79 => ⟨S3300000, .f32⟩
  | 80 => ⟨S_, .f32⟩
  | 81 => ⟨S100000, .f32⟩
  | 82 => ⟨S3300000x1, .i32⟩
  | 83 => ⟨S100000, .f32⟩
  | 84 => ⟨S_, .f32⟩
  | 85 => ⟨S100000, .f32⟩
  | 86 => ⟨S100000, .i1⟩
  | 87 => ⟨S100000, .f32⟩
  | 88 => ⟨S_, .f32⟩
  | 89 => ⟨S_, .f32⟩
  | 90 => ⟨S100000, .f32⟩
  | 91 => ⟨S100000, .f32⟩
  | 92 => ⟨S_, .i32⟩
  | 93 => ⟨S3300000, .i32⟩
  | 94 => ⟨S3300000, .i1⟩
  | 95 => ⟨S_, .i32⟩
  | 96 => ⟨S3300000, .i32⟩
  | 97 => ⟨S3300000, .i32⟩
  | 98 => ⟨S3300000, .i32⟩
  | 99 => ⟨S3300000x1, .i32⟩
  | 100 => ⟨S3300000, .f32⟩
  | 101 => ⟨S_, .i32⟩
  | 102 => ⟨S3300000, .i32⟩
  | 103 => ⟨S3300000, .i1⟩
  | 104 => ⟨S_, .i32⟩
  | 105 => ⟨S3300000, .i32⟩
  | 106 => ⟨S3300000, .i32⟩
  | 107 => ⟨S3300000, .i32⟩
  | 108 => ⟨S3300000x1, .i32⟩
  | 109 => ⟨S3300000, .f32⟩
  | 110 => ⟨S3300000, .f32⟩
  | 111 => ⟨S100000x64, .f32⟩
  | 112 => ⟨S_, .i32⟩
  | 113 => ⟨S3300000, .i32⟩
  | 114 => ⟨S3300000, .i1⟩
  | 115 => ⟨S_, .i32⟩
  | 116 => ⟨S3300000, .i32⟩
  | 117 => ⟨S3300000, .i32⟩
  | 118 => ⟨S3300000, .i32⟩
  | 119 => ⟨S3300000x1, .i32⟩
  | 120 => ⟨S3300000x64, .f32⟩
  | 121 => ⟨S3300000x1, .f32⟩
  | 122 => ⟨S3300000x64, .f32⟩
  | 123 => ⟨S3300000x64, .f32⟩
  | 124 => ⟨S_, .f32⟩
  | 125 => ⟨S100000x64, .f32⟩
  | 126 => ⟨S3300000x1, .i32⟩
  | 127 => ⟨S100000x64, .f32⟩
  | _ => ⟨S100000x128, .f32⟩

abbrev hbmTy0_1 (i : Nat) : BufTy := match i % 128 with
  | 0 => ⟨S1x64, .f32⟩
  | 1 => ⟨S100000x64, .f32⟩
  | 2 => ⟨S100000x64, .f32⟩
  | 3 => ⟨S_, .f32⟩
  | 4 => ⟨S100000x64, .f32⟩
  | 5 => ⟨S100000x64, .f32⟩
  | 6 => ⟨S100000x1, .f32⟩
  | 7 => ⟨S1x1, .f32⟩
  | 8 => ⟨S100000x1, .f32⟩
  | 9 => ⟨S100000x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_9 : Ref sig .tc := ⟨.hbm, 78, rfl⟩
abbrev main_v55 : Ref sig .tc := ⟨.hbm, 79, rfl⟩
abbrev main_cst_10 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_12 : Ref sig .tc := ⟨.hbm, 88, rfl⟩
abbrev main_call2_v0 : Ref sig .tc := ⟨.hbm, 89, rfl⟩
abbrev main_call2_v1 : Ref sig .tc := ⟨.hbm, 90, rfl⟩
abbrev main_v62 : Ref sig .tc := ⟨.hbm, 91, rfl⟩
abbrev main_c_13 : Ref sig .tc := ⟨.hbm, 92, rfl⟩
abbrev main_v63 : Ref sig .tc := ⟨.hbm, 93, rfl⟩
abbrev main_v64 : Ref sig .tc := ⟨.hbm, 94, rfl⟩
abbrev main_c_14 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_c_15 : Ref sig .tc := ⟨.hbm, 101, rfl⟩
abbrev main_v70 : Ref sig .tc := ⟨.hbm, 102, rfl⟩
abbrev main_v71 : Ref sig .tc := ⟨.hbm, 103, rfl⟩
abbrev main_c_16 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_c_17 : Ref sig .tc := ⟨.hbm, 112, rfl⟩
abbrev main_v79 : Ref sig .tc := ⟨.hbm, 113, rfl⟩
abbrev main_v80 : Ref sig .tc := ⟨.hbm, 114, rfl⟩
abbrev main_c_18 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_19 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_call3_cst : Ref sig .tc := ⟨.hbm, 131, rfl⟩
abbrev main_call3_v0 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x128_S128x64_S100000x64_1_0_0_1_n_n_wf : DotDims.WF S100000x128 S128x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x64_S100000x64_1_0_0_1_n_n_wf : DotDims.WF S100000x64 S64x64 S100000x64 [1] [0] [0] [1] [] []
  dot_S100000x64_S64x1_S100000x1_1_0_0_1_n_n_wf : DotDims.WF S100000x64 S64x1 S100000x1 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.KernelRun.lean ====
/-
  The kernel program's run with its result named: every weakly fair execution of the whole program — three
  pallas_calls among stretches of host operations — terminates without a fault, the argument arrays end as launched,
  and the result buffer ends at what the last boundary of the program's fold of buffer contents holds there.
  The boundaries' contents are the fold that the frame is stated over; here the final state is read at one more
  buffer, the result's, beside the arguments.
-/
import proofs.«116673_j82351702933640_1_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result buffer read off the last boundary. -/
theorem run : θ_run defs (onTc (τ := τ) (main (F := F))) ⟨m, fun _ => 0, ρ⟩ (fun r => ∀ c : Dev nD,
      r.2.mem ((c.tc : Thread nD τ).loc main_v61) = W8 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v61 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.KernelIdeal.Whole

end
-- ==== Proof.Network.lean ====
/-
  The network both programs compute, as one function of the eight argument arrays over the extended reals.

  A graph of 100000 nodes with 3200000 directed edges (row 0 of the edge array: sources, row 1: targets) gets one
  self-loop per node. The in-degree of a node counts the edges and the loop that end in it; an edge from `s` to
  `t` carries the weight `dinv s * dinv t`, where `dinv n` is the inverse square root of the degree where the degree is
  positive and zero elsewhere. One propagation step sends every row of a feature matrix along every edge, scaled by
  the edge's weight, and adds up what arrives at each node. The network is: a linear map, a propagation, a bias and
  a rectifier; again a linear map, a propagation, a bias and a rectifier; a last linear map and a bias.
  Everything is spelt with the host operations, so that each program's term can be compared with it piece by piece
  without opening a gather or a scatter.
-/
import proofs.«116673_j82351702933640_1_alg».proof.Proof.Gen.ReferenceIdeal
import Idealize.ShloMosaic.PureOps.Ideal

noncomputable section

namespace Cert.GraphNet

open Idealize.ShloMosaic Cert.ReferenceIdeal Cert.ReferenceIdeal.Gen

/-- The edge array: two rows of 3200000 node numbers. -/
abbrev EdgeArray := (⟨S2x3200000, .i32⟩ : BufTy).Contents (Elt Ideal)
/-- One node number per edge and per self-loop. -/
abbrev EdgeEnds := (⟨S3300000, .i32⟩ : BufTy).Contents (Elt Ideal)
/-- One weight per edge and per self-loop. -/
abbrev EdgeWeights := (⟨S3300000, .f32⟩ : BufTy).Contents (Elt Ideal)
/-- One number per node. -/
abbrev NodeVec := (⟨S100000, .f32⟩ : BufTy).Contents (Elt Ideal)
/-- 64 features per node. -/
abbrev Features := (⟨S100000x64, .f32⟩ : BufTy).Contents (Elt Ideal)

/-- Row `r` of the edge array followed by the node numbers `0 … 99999` (the self-loops). -/
def sources (e : EdgeArray) : EdgeEnds :=
  concatenate S3300000 0 [⟨S3200000, shapeCast _ (extractStridedSlice S1x3200000 ![0, 0] e slices_S2x3200000_S1x3200000_0_0) shapeCasts_S1x3200000_S3200000⟩, ⟨S100000, iotaInDim S100000 32 0⟩] concatenates_S3200000_S100000_S3300000_d0

def targets (e : EdgeArray) : EdgeEnds :=
  concatenate S3300000 0 [⟨S3200000, shapeCast _ (extractStridedSlice S1x3200000 ![1, 0] e slices_S2x3200000_S1x3200000_1_0) shapeCasts_S1x3200000_S3200000⟩, ⟨S100000, iotaInDim S100000 32 0⟩] concatenates_S3200000_S100000_S3300000_d0

/-- A vector of node numbers as a column of one-entry index vectors. -/
def asColumn (v : EdgeEnds) : (⟨S3300000x1, .i32⟩ : BufTy).Contents (Elt Ideal) :=
  broadcastInDim S3300000x1 ![0] bcast_S3300000_S3300000x1_0 v

/-- A negative node number counts from the end: `v + 100000` where `v < 0`. -/
def wrapped (v : EdgeEnds) : EdgeEnds :=
  select (cmpi .slt v (broadcastInDim S3300000 ![] bcast_S_S3300000 (constantI S_ 32 0#32)))
    (addi v (broadcastInDim S3300000 ![] bcast_S_S3300000 (constantI S_ 32 100000#32))) v

/-- The in-degree: one added at the target of every edge and loop. -/
def degree (tg : EdgeEnds) : NodeVec :=
  Host.scatterAdd (F := Ideal) scatter_S100000_S3300000x1_S3300000_n_0_0_1
    (broadcastInDim S100000 ![] bcast_S_S100000 (constant (F := Ideal) S_ .f32 0x00000000#32))
    (asColumn tg)
    (broadcastInDim S3300000 ![] bcast_S_S3300000 (constant (F := Ideal) S_ .f32 0x3F800000#32))

/-- `1 / sqrt d` where `d > 0`, zero elsewhere. -/
def invSqrt (d : NodeVec) : NodeVec :=
  select (cmpf (F := Ideal) (φ := .f32) .ogt d (broadcastInDim S100000 ![] bcast_S_S100000 (constant (F := Ideal) S_ .f32 0x00000000#32)))
    (Host.rsqrt (F := Ideal) (φ := .f32) d)
    (broadcastInDim S100000 ![] bcast_S_S100000 (constant (F := Ideal) S_ .f32 0x00000000#32))

/-- The weight of every edge and loop: `dinv` at its source times `dinv` at its target. -/
def edgeWeights (sr tg : EdgeEnds) : EdgeWeights :=
  mulf (F := Ideal) (φ := .f32)
    (Host.gather gather_S100000_S3300000x1_S3300000_n_0_n_n_0_1_1 (invSqrt (degree tg)) (asColumn (wrapped sr)))
    (Host.gather gather_S100000_S3300000x1_S3300000_n_0_n_n_0_1_1 (invSqrt (degree tg)) (asColumn (wrapped tg)))

/-- One propagation step: row `sr k` of `h`, scaled by `w k`, added into row `tg k`, over all edges and loops `k`. -/
def propagate (sr tg : EdgeEnds) (w : EdgeWeights) (h : Features) : Features :=
  Host.scatterAdd (F := Ideal) scatter_S100000x64_S3300000x1_S3300000x64_1_0_0_1
    (broadcastInDim S100000x64 ![] bcast_S_S100000x64 (constant (F := Ideal) S_ .f32 0x00000000#32))
    (asColumn tg)
    (mulf (F := Ideal) (φ := .f32) (Host.gather gather_S100000x64_S3300000x1_S3300000x64_1_0_n_n_0_1_164 h (asColumn (wrapped sr)))
      (broadcastInDim S3300000x64 ![0, 1] bcast_S3300000x1_S3300000x64_0_1 (broadcastInDim S3300000x1 ![0] bcast_S3300000_S3300000x1_0 w)))

/-- A row of 64 biases added to every node's features, then the rectifier `max(·, 0)`. -/
def biasRelu (a : Features) (row : (⟨S1x64, .f32⟩ : BufTy).Contents (Elt Ideal)) : Features :=
  maximumf (F := Ideal) (φ := .f32) (addf (F := Ideal) (φ := .f32) a (broadcastInDim S100000x64 ![0, 1] bcast_S1x64_S100000x64_0_1 row))
    (broadcastInDim S100000x64 ![] bcast_S_S100000x64 (constant (F := Ideal) S_ .f32 0x00000000#32))

/-- A bias vector as a row. -/
def asRow (b : (⟨S64, .f32⟩ : BufTy).Contents (Elt Ideal)) : (⟨S1x64, .f32⟩ : BufTy).Contents (Elt Ideal) :=
  broadcastInDim S1x64 ![1] bcast_S64_S1x64_1 b

/-- The first linear map: `x · W1`. -/
def linear1 (x : (⟨S100000x128, .f32⟩ : BufTy).Contents (Elt Ideal)) (W : (⟨S128x64, .f32⟩ : BufTy).Contents (Elt Ideal)) : Features :=
  Host.dotGeneral (F := Ideal) (φ₁ := .f32) (φ₂ := .f32) dot_S100000x128_S128x64_S100000x64_1_0_0_1_n_n none x W

/-- The second layer's dense part: bias, rectifier, `· W2`. -/
def dense2 (a : Features) (row : (⟨S1x64, .f32⟩ : BufTy).Contents (Elt Ideal)) (W : (⟨S64x64, .f32⟩ : BufTy).Contents (Elt Ideal)) : Features :=
  Host.dotGeneral (F := Ideal) (φ₁ := .f32) (φ₂ := .f32) dot_S100000x64_S64x64_S100000x64_1_0_0_1_n_n none (biasRelu a row) W

/-- The head: bias, rectifier, `· W3`, plus the one-entry bias `c`. -/
def head (a : Features) (row : (⟨S1x64, .f32⟩ : BufTy).Contents (Elt Ideal)) (W : (⟨S64x1, .f32⟩ : BufTy).Contents (Elt Ideal))
    (c : (⟨S1x1, .f32⟩ : BufTy).Contents (Elt Ideal)) : (⟨S100000x1, .f32⟩ : BufTy).Contents (Elt Ideal) :=
  addf (F := Ideal) (φ := .f32) (Host.dotGeneral (F := Ideal) (φ₁ := .f32) (φ₂ := .f32) dot_S100000x64_S64x1_S100000x1_1_0_0_1_n_n none (biasRelu a row) W)
    (broadcastInDim S100000x1 ![0, 1] bcast_S1x1_S100000x1_0_1 c)

/-- The whole network. -/
def network (x : (⟨S100000x128, .f32⟩ : BufTy).Contents (Elt Ideal)) (e : EdgeArray)
    (W1 : (⟨S128x64, .f32⟩ : BufTy).Contents (Elt Ideal)) (b1 : (⟨S64, .f32⟩ : BufTy).Contents (Elt Ideal))
    (W2 : (⟨S64x64, .f32⟩ : BufTy).Contents (Elt Ideal)) (b2 : (⟨S64, .f32⟩ : BufTy).Contents (Elt Ideal))
    (W3 : (⟨S64x1, .f32⟩ : BufTy).Contents (Elt Ideal)) (b3 : (⟨S1, .f32⟩ : BufTy).Contents (Elt Ideal)) :
    (⟨S100000x1, .f32⟩ : BufTy).Contents (Elt Ideal) :=
  head
    (propagate (sources e) (targets e) (edgeWeights (sources e) (targets e))
      (dense2
        (propagate (sources e) (targets e) (edgeWeights (sources e) (targets e)) (linear1 x W1))
        (asRow b1) W2))
    (asRow b2) W3 (broadcastInDim S1x1 ![1] bcast_S1_S1x1_1 b3)

end Cert.GraphNet

end
-- ==== Proof.Entry1.lean ====
/-
  What the kernel program's buffers hold when its first pallas_call is entered: the host operations before it build,
  from the edge array, the list of edge sources and the list of edge targets (each followed by the self-loops) and
  the weight of every edge, and leave the other arguments as launched.
-/
import proofs.«116673_j82351702933640_1_alg».proof.Proof.Gen.KernelIdeal.Frame
import proofs.«116673_j82351702933640_1_alg».proof.Proof.Network
import Idealize.ShloMosaic.Lib.StableHlo.Run

noncomputable section

namespace Cert.KernelIdeal.Walk

open Idealize.ShloMosaic Idealize.ShloMosaic.TcCoe Idealize.SL.Sem Idealize.ShloMosaic.StableHlo
open Cert.KernelIdeal Cert.KernelIdeal.Gen Cert.GraphNet

variable (m : (ℓ : Loc nD τ sig) → Buf (Elt Ideal) ℓ) (ρ : Dev nD → PrngReg) (c : Dev nD)

/-- The edge sources, followed by the self-loops. -/
theorem entry1_sources : W3 m ρ c (Proc.devRef .tc main_v5) = sources (m ((c : Thread nD τ).loc main_arg1)) := by
  show StableHlo.after hostOps0_2 (StableHlo.after hostOps0_1 (StableHlo.after hostOps0 (W0 m ρ c))) (Proc.devRef .tc main_v5) = _
  after_results <;> rfl

/-- The edge targets, followed by the self-loops. -/
theorem entry1_targets : W3 m ρ c (Proc.devRef .tc main_v6) = targets (m ((c : Thread nD τ).loc main_arg1)) := by
  show StableHlo.after hostOps0_2 (StableHlo.after hostOps0_1 (StableHlo.after hostOps0 (W0 m ρ c))) (Proc.devRef .tc main_v6) = _
  after_results <;> rfl

/-! The weights, one stretch of host operations at a time, over any buffer contents `V`. -/

section Stretches

variable (V : Valuation τ sig (Elt Ideal))

/-- The first stretch compares the in-degree with zero … -/
theorem stretch_positive : StableHlo.after hostOps0 V (Proc.devRef .tc main_v12)
    = cmpf (F := Ideal) (φ := .f32) .ogt (degree (targets (V (Proc.devRef .tc main_arg1))))
        (broadcastInDim Cert.ReferenceIdeal.S100000 ![] Cert.ReferenceIdeal.Gen.bcast_S_S100000 (constant (F := Ideal) Cert.ReferenceIdeal.S_ .f32 0x00000000#32)) := by
  after_results <;> rfl

/-- … takes its inverse square root … -/
theorem stretch_rsqrt : StableHlo.after hostOps0 V (Proc.devRef .tc main_v13)
    = Host.rsqrt (F := Ideal) (φ := .f32) (degree (targets (V (Proc.devRef .tc main_arg1)))) := by
  after_results <;> rfl

/-- … and writes a zero. -/
theorem stretch_zero : StableHlo.after hostOps0 V (Proc.devRef .tc main_cst_2)
    = constant (F := Ideal) Cert.ReferenceIdeal.S_ .f32 0x00000000#32 := by
  after_results <;> rfl

/-- The second stretch selects between the two. -/
theorem stretch_select : StableHlo.after hostOps0_1 V (Proc.devRef .tc main_v14)
    = select (V (Proc.devRef .tc main_v12)) (V (Proc.devRef .tc main_v13))
        (broadcastInDim Cert.ReferenceIdeal.S100000 ![] Cert.ReferenceIdeal.Gen.bcast_S_S100000 (V (Proc.devRef .tc main_cst_2))) := by
  after_results <;> rfl

theorem stretch_select_keeps_main_v5 : StableHlo.after hostOps0_1 V (Proc.devRef .tc main_v5) = V (Proc.devRef .tc main_v5) := by
  after_results <;> rfl
theorem stretch_select_keeps_main_v6 : StableHlo.after hostOps0_1 V (Proc.devRef .tc main_v6) = V (Proc.devRef .tc main_v6) := by
  after_results <;> rfl
theorem stretch_sources : StableHlo.after hostOps0 V (Proc.devRef .tc main_v5) = sources (V (Proc.devRef .tc main_arg1)) := by
  after_results <;> rfl
theorem stretch_targets : StableHlo.after hostOps0 V (Proc.devRef .tc main_v6) = targets (V (Proc.devRef .tc main_arg1)) := by
  after_results <;> rfl

set_option maxHeartbeats 4000000 in
/-- The third stretch gathers the selected value at both ends of every edge and multiplies. -/
theorem stretch_weights : StableHlo.after hostOps0_2 V (Proc.devRef .tc main_v29)
    = mulf (F := Ideal) (φ := .f32)
        (Host.gather Cert.ReferenceIdeal.gather_S100000_S3300000x1_S3300000_n_0_n_n_0_1_1 (V (Proc.devRef .tc main_v14)) (asColumn (wrapped (V (Proc.devRef .tc main_v5)))))
        (Host.gather Cert.ReferenceIdeal.gather_S100000_S3300000x1_S3300000_n_0_n_n_0_1_1 (V (Proc.devRef .tc main_v14)) (asColumn (wrapped (V (Proc.devRef .tc main_v6))))) := by
  after_results <;> rfl

end Stretches

/-- The selected value when the third stretch starts: the inverse square root of the in-degree where positive. -/
theorem dinv_eq : W2 m ρ c (Proc.devRef .tc main_v14) = invSqrt (degree (targets (m ((c : Thread nD τ).loc main_arg1)))) := by
  refine (stretch_select (W1 m ρ c)).trans ?_
  rw [show W1 m ρ c (Proc.devRef .tc main_v12) = _ from stretch_positive (W0 m ρ c),
    show W1 m ρ c (Proc.devRef .tc main_v13) = _ from stretch_rsqrt (W0 m ρ c),
    show W1 m ρ c (Proc.devRef .tc main_cst_2) = _ from stretch_zero (W0 m ρ c)]
  rfl

/-- The edge weights. -/
theorem entry1_weights : W3 m ρ c (Proc.devRef .tc main_v29)
    = edgeWeights (sources (m ((c : Thread nD τ).loc main_arg1))) (targets (m ((c : Thread nD τ).loc main_arg1))) := by
  refine (stretch_weights (W2 m ρ c)).trans ?_
  rw [dinv_eq,
    show W2 m ρ c (Proc.devRef .tc main_v5) = _ from (stretch_select_keeps_main_v5 (W1 m ρ c)).trans (stretch_sources (W0 m ρ c)),
    show W2 m ρ c (Proc.devRef .tc main_v6) = _ from (stretch_select_keeps_main_v6 (W1 m ρ c)).trans (stretch_targets (W0 m ρ c))]
  rfl

/-- Argument 0 as launched. -/
theorem entry1_arg0 : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results <;> rfl

/-- Argument 2 as launched. -/
theorem entry1_arg2 : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  after_results <;> rfl

/-- Argument 3 as launched. -/
theorem entry1_arg3 : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  after_results <;> rfl

/-- Argument 4 as launched. -/
theorem entry1_arg4 : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  after_results <;> rfl

/-- Argument 5 as launched. -/
theorem entry1_arg5 : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  after_results <;> rfl

/-- Argument 6 as launched. -/
theorem entry1_arg6 : W3 m ρ c (Proc.devRef .tc main_arg6) = m ((c : Thread nD τ).loc main_arg6) := by
  show StableHlo.after hostOps0_2 (StableHlo.after hostOps0_1 (StableHlo.after hostOps0 (W0 m ρ c))) (Proc.devRef .tc main_arg6) = _
  after_results <;> rfl

/-- Argument 7 as launched. -/
theorem entry1_arg7 : W3 m ρ c (Proc.devRef .tc main_arg7) = m ((c : Thread nD τ).loc main_arg7) := by
  show StableHlo.after hostOps0_2 (StableHlo.after hostOps0_1 (StableHlo.after hostOps0 (W0 m ρ c))) (Proc.devRef .tc main_arg7) = _
  after_results <;> rfl

end Cert.KernelIdeal.Walk

end
-- ==== Proof.LibPlainMatmul.lean ====
/-
  The plain matrix product on the extended reals, read at one entry.

  A matrix unit's product of an `m × k` by a `k × n` array (rows against columns, no batch axis), accumulated into the
  zero array, holds at entry `(a, b)` the sum over the contracted position `c` of `A[a,c] · B[c,b]`. The contraction's
  index set has one axis; it is re-indexed by its one coordinate, and the operands' indices at output entry `(a, b)`
  and contraction position `c` are named by their coordinates, axis by axis: a free axis reads the output's
  coordinate, the contracted axis reads `c`.
-/
import Idealize.ShloMosaic.PureOps.Ideal.Laws
import Idealize.ShloMosaic.Lib.ValueIdx

noncomputable section

open scoped BigOperators

namespace Idealize.ShloMosaic.PlainMatmul

open Idealize.ShloMosaic Idealize.ShloMosaic.ValueIdx

variable {m k n : Nat}

/-- The left operand's row coordinate is the output's row coordinate. -/
theorem lhs_row (i : (⟨2, ![m, n]⟩ : Shape).Idx) (q : (DotDims.plain m k n).contr.Idx) :
    ((DotDims.plain m k n).lhsIdx i q 0).val = (i 0).val := by
  unfold DotDims.lhsIdx
  rw [dif_neg (show ¬(0 : Fin (⟨2, ![m, k]⟩ : Shape).rank) ∈ (DotDims.plain m k n).lhsBatch from List.not_mem_nil),
    dif_pos (show (0 : Fin (⟨2, ![m, k]⟩ : Shape).rank) ∈ (DotDims.plain m k n).lhsNonContracting from List.mem_singleton.mpr rfl)]
  rfl

/-- The left operand's column coordinate is the contraction position. -/
theorem lhs_col (i : (⟨2, ![m, n]⟩ : Shape).Idx) (q : (DotDims.plain m k n).contr.Idx) :
    ((DotDims.plain m k n).lhsIdx i q 1).val = (q ⟨0, (Nat.one_pos : 0 < 1)⟩).val :=
  (DotDims.plain m k n).lhsIdx_val_of_single rfl i q

/-- The right operand's row coordinate is the contraction position. -/
theorem rhs_row (i : (⟨2, ![m, n]⟩ : Shape).Idx) (q : (DotDims.plain m k n).contr.Idx) :
    ((DotDims.plain m k n).rhsIdx i q 0).val = (q ⟨0, (Nat.one_pos : 0 < 1)⟩).val :=
  (DotDims.plain m k n).rhsIdx_val_of_single rfl i q

/-- The right operand's column coordinate is the output's column coordinate. -/
theorem rhs_col (i : (⟨2, ![m, n]⟩ : Shape).Idx) (q : (DotDims.plain m k n).contr.Idx) :
    ((DotDims.plain m k n).rhsIdx i q 1).val = (i 1).val := by
  unfold DotDims.rhsIdx
  rw [dif_neg (show ¬(1 : Fin (⟨2, ![k, n]⟩ : Shape).rank) ∈ (DotDims.plain m k n).rhsBatch from List.not_mem_nil),
    dif_pos (show (1 : Fin (⟨2, ![k, n]⟩ : Shape).rank) ∈ (DotDims.plain m k n).rhsNonContracting from List.mem_singleton.mpr rfl)]
  rfl

/-- **The plain product into the zero accumulator at an entry**: `∑ c, A[a,c] · B[c,b]`, at the ideal values,
    whatever the operands' formats and the precision key. -/
theorem matmul_zero_apply {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant ⟨2, ![m, n]⟩ .f32 0x00000000#32) (ix2 a b)
      = ∑ c : Fin k, A (ix2 a c) * B (ix2 c b) := by
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c :=
    funext fun ax => Fin.ext (by
      match ax with
      | ⟨0, _⟩ => exact lhs_row _ _
      | ⟨1, _⟩ => exact (lhs_col _ _).trans hc)
  have er : (DotDims.plain m k n).rhsIdx (ix2 a b) ((contrEquiv1 (DotDims.plain m k n) k rfl rfl).symm c) = ix2 c b :=
    funext fun ax => Fin.ext (by
      match ax with
      | ⟨0, _⟩ => exact (rhs_row _ _).trans hc
      | ⟨1, _⟩ => exact rhs_col _ _)
  rw [el, er]

end Idealize.ShloMosaic.PlainMatmul

end
-- ==== Proof.LibPlainDot.lean ====
/-
  The host's plain matrix product on the extended reals, read at one entry.

  `dot_general` of an `m × k` by a `k × n` array (rows against columns, no batch axis) holds at entry `(a, b)` the sum
  over the contracted position `c` of `A[a,c] · B[c,b]`, whatever the precision and schedule keys: the very sum the matrix
  unit's product into the zero array holds there. The contraction's one-axis index set is re-indexed by its coordinate
  and the operands' indices are named by their coordinates, exactly as for the matrix unit's product.
-/
import proofs.«116673_j82351702933640_1_alg».proof.Proof.LibPlainMatmul

noncomputable section

open scoped BigOperators

namespace Idealize.ShloMosaic.PlainDot

open Idealize.ShloMosaic Idealize.ShloMosaic.ValueIdx Idealize.ShloMosaic.PlainMatmul

variable {m k n : Nat}

/-- **The host's plain product at an entry**: `∑ c, A[a,c] · B[c,b]`, at the ideal values, whatever the operands'
    formats, the precision key and the schedule key. -/
theorem dotGeneral_apply_entry {φ₁ φ₂ : FTy} (prec : Option ContractPrecision) (sched : HostSchedule)
    (A : FVec Ideal ⟨2, ![m, k]⟩ φ₁) (B : FVec Ideal ⟨2, ![k, n]⟩ φ₂) (a : Fin m) (b : Fin n) :
    FloatOps.dotGeneral (DotDims.plain m k n) prec sched A B (ix2 a b) = ∑ c : Fin k, A (ix2 a c) * B (ix2 c b) := by
  rw [Ideal.dotGeneral_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c :=
    funext fun ax => Fin.ext (by
      match ax with
      | ⟨0, _⟩ => exact lhs_row _ _
      | ⟨1, _⟩ => exact (lhs_col _ _).trans hc)
  have er : (DotDims.plain m k n).rhsIdx (ix2 a b) ((contrEquiv1 (DotDims.plain m k n) k rfl rfl).symm c) = ix2 c b :=
    funext fun ax => Fin.ext (by
      match ax with
      | ⟨0, _⟩ => exact (rhs_row _ _).trans hc
      | ⟨1, _⟩ => exact rhs_col _ _)
  rw [el, er]

/-- The matrix unit's product into the zero array and the host's product of the same operands are one array. -/
theorem matmul_zero_eq_dotGeneral {φ₁ φ₂ : FTy} (prec prec' : Option ContractPrecision) (sched : HostSchedule)
    (A : FVec Ideal ⟨2, ![m, k]⟩ φ₁) (B : FVec Ideal ⟨2, ![k, n]⟩ φ₂) :
    FloatOps.matmul (DotDims.plain m k n) prec A B (constant ⟨2, ![m, n]⟩ .f32 0x00000000#32)
      = FloatOps.dotGeneral (DotDims.plain m k n) prec' sched A B := by
  funext i
  obtain ⟨a, b, rfl⟩ : ∃ (a : Fin m) (b : Fin n), i = ix2 a b := ⟨i 0, i 1, eq_ix2 i⟩
  rw [matmul_zero_apply, dotGeneral_apply_entry]

end Idealize.ShloMosaic.PlainDot

end
-- ==== Proof.Layer1.lean ====
/-
  The first pallas_call, read as a value: whatever the two operand arrays hold when it is entered, its result array
  ends holding their matrix product.

  The grid has ten points. Point `t` is handed rows `10000·t … 10000·t + 9999` of the left operand and the whole right
  operand, and writes the product of the two blocks back as rows `10000·t …` of the result. Entry `(r, j)` of a block
  product is the sum over `k` of left`[10000·t + r, k]` times right`[k, j]`: the very sum that is entry
  `(10000·t + r, j)` of the whole product. The ten row blocks tile the result, so the result is the whole product.
  Rounding the operands to bf16 on the way into the matrix unit is the identity on the extended reals.
-/
import proofs.«116673_j82351702933640_1_alg».proof.Proof.Gen.KernelIdeal.Frame
import proofs.«116673_j82351702933640_1_alg».proof.Proof.Network
import proofs.«116673_j82351702933640_1_alg».proof.Proof.LibPlainDot
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx
open Idealize.ShloMosaic.Pipeline (Dat)

namespace Cert.KernelIdeal.Layer1

open Cert.KernelIdeal Cert.KernelIdeal.Gen

variable (V : (c : Dev nD) → (b : Ref sig .tc) → Buf (Elt Ideal) ((c : Thread nD τ).loc b))

theorem zeroOffsets : (![0, 0] : Fin 2 → Nat) = fun _ => 0 := funext fun a => by fin_cases a <;> rfl

/-- Row `r` of point `t`'s block is row `10000·t + r` of the array. -/
def rowOf (t : Fin cfg0.N) (r : Fin 10000) : Fin 100000 :=
  ⟨10000 * t.val + r.val, by have h : t.val < 10 := lt_of_lt_of_eq t.isLt N_0; have := r.isLt; omega⟩

/-- The block product at an entry. -/
theorem blockProduct_apply (x0 : Vec Ideal S10000x128 .f32) (x1 : Vec Ideal S128x64 .f32) (r : Fin 10000) (j : Fin 64) :
    k0_pay1 (F := Ideal) x0 x1 (ix2 r j) = ∑ k : Fin 128, x0 (ix2 r k) * x1 (ix2 k j) :=
  PlainMatmul.matmul_zero_apply (m := 10000) (k := 128) (n := 64) none
    (truncf .bf16 x0 bitsLt_bf16_f32) (truncf .bf16 x1 bitsLt_bf16_f32) r j

/-- The whole product at an entry. -/
theorem linear1_apply (x : (⟨Cert.ReferenceIdeal.S100000x128, .f32⟩ : BufTy).Contents (Elt Ideal))
    (W : (⟨Cert.ReferenceIdeal.S128x64, .f32⟩ : BufTy).Contents (Elt Ideal)) (i : Fin 100000) (j : Fin 64) :
    Cert.GraphNet.linear1 x W (ix2 i j) = ∑ k : Fin 128, x (ix2 i k) * W (ix2 k j) :=
  PlainDot.dotGeneral_apply_entry (m := 100000) (k := 128) (n := 64) none _ x W i j

/-- Where each window's block sits at point `t`: the row-tiled ones at block row `t`, the weight at the origin. -/
theorem blockIndices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole product of the arrays the call finds. -/
theorem flushed_eq (c : Dev nD) (t : Fin cfg0.N) :
    (dat0 V c).flushed 2 t
      = ((cfg0.win 2).blk t).view.read (Elt Ideal) (Cert.GraphNet.linear1 (V c main_arg0) (V c main_arg2)) := by
  show (cfg0.win 2).cut (grid0.coords t) ((dat0 V c).after 2 t) = _
  rw [after0_2]
  unfold out0_2
  rw [View.canon_unit_zero zeroOffsets]
  simp only [View.ld_unit_zero (S := S10000x128) zeroOffsets, View.ld_unit_zero (S := S128x64) zeroOffsets]
  obtain ⟨e0, e1, e2, e3, e4, e5⟩ := blockIndices t
  funext y
  obtain ⟨r, j, rfl⟩ : ∃ (r : Fin 10000) (j : Fin 64), y = ix2 r j := ⟨y 0, y 1, eq_ix2 y⟩
  refine (blockProduct_apply _ _ r j).trans ?_
  have hout : ((cfg0.win 2).blk t).view.emb (ix2 r j) = ix2 (rowOf t r) j := by
    funext a; apply Fin.ext
    match a with
    | ⟨0, _⟩ => show win0_2.index t (0 : Fin 2) * 10000 + 1 * r.val = 10000 * t.val + r.val; omega
    | ⟨1, _⟩ => show win0_2.index t (1 : Fin 2) * 64 + 1 * j.val = j.val; omega
  rw [View.read_apply, hout, linear1_apply]
  refine Finset.sum_congr rfl fun k _ => ?_
  have h0 : ((cfg0.win 0).blk t).view.emb (ix2 r k) = ix2 (rowOf t r) k := by
    funext a; apply Fin.ext
    match a with
    | ⟨0, _⟩ => show win0_0.index t (0 : Fin 2) * 10000 + 1 * r.val = 10000 * t.val + r.val; omega
    | ⟨1, _⟩ => show win0_0.index t (1 : Fin 2) * 128 + 1 * k.val = k.val; omega
  have h1 : ((cfg0.win 1).blk t).view.emb (ix2 k j) = ix2 k j := by
    funext a; apply Fin.ext
    match a with
    | ⟨0, _⟩ => show win0_1.index t (0 : Fin 2) * 128 + 1 * k.val = k.val; omega
    | ⟨1, _⟩ => show win0_1.index t (1 : Fin 2) * 64 + 1 * j.val = j.val; omega
  have ha : iblk0 V c 0 t (ix2 r k) = V c main_arg0 (ix2 (rowOf t r) k) := by
    show V c main_arg0 (((cfg0.win 0).blk t).view.emb (ix2 r k)) = _
    rw [h0]
  have hb : iblk0 V c 1 t (ix2 k j) = V c main_arg2 (ix2 k j) := by
    show V c main_arg2 (((cfg0.win 1).blk t).view.emb (ix2 k j)) = _
    rw [h1]
  rw [ha, hb]

/-- An index of the result is in point `t`'s block iff its row is one of the block's rows. -/
theorem mem_block (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v30).slice (win0_2.rect t)).set ↔ _
  rw [View.set_slice_whole, Rect.mem_set_unit]
  exact Iff.rfl

/-- The ten row blocks cover the result: row `i` is in block `i / 10000`. -/
theorem covered (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := N_0
  let t : Fin cfg0.N := ⟨(i 0).val / 10000, by rw [hN]; omega⟩
  obtain ⟨e0, e1, e2, e3, e4, e5⟩ := blockIndices t
  have e4' : win0_2.index t (0 : Fin 2) = (i 0).val / 10000 := e4
  refine ⟨t, flush0_2 t, ?_⟩
  rw [mem_block]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- **The first call's result**: the product of the two operand arrays as the call finds them. -/
theorem result (c : Dev nD) :
    (dat0 V c).arrAt 2 cfg0.N = Cert.GraphNet.linear1 (V c main_arg0) (V c main_arg2) :=
  (dat0 V c).arrAt_eq_of_cover 2 _ (fun t _ => flushed_eq V c t) covered

end Cert.KernelIdeal.Layer1

end
-- ==== Proof.BiasRelu.lean ====
/-
  The bias-and-rectifier step at one entry, and two spellings of a bias as a row.

  Adding a row of biases to every node's features and clamping at zero is, at node `i` and feature `k`,
  `max (a[i,k] + row[0,k], 0)`. A vector of biases becomes a one-row matrix either by a reshape or by a broadcast
  along a new leading axis; both read the vector at the column number.
-/
import proofs.«116673_j82351702933640_1_alg».proof.Proof.Network
import Idealize.ShloMosaic.Lib.Pipeline.Value
import Idealize.ShloMosaic.Lib.ValueIdx
import Idealize.ShloMosaic.Lib.ValueLayout

noncomputable section

open Idealize.ShloMosaic Idealize.ShloMosaic.ValueIdx

namespace Cert.GraphNet

open Cert.ReferenceIdeal Cert.ReferenceIdeal.Gen

/-- `max (a + b, 0)` on the extended reals, the zero spelt as the float word it is printed with. -/
def rectified (a b : EReal) : EReal := max (a + b) (Ideal.ofBits .f32 0x00000000#32)

/-- The bias-and-rectifier step at an entry. -/
theorem biasRelu_apply (a : Features) (row : (⟨S1x64, .f32⟩ : BufTy).Contents (Elt Ideal)) (i : Fin 100000) (k : Fin 64) :
    biasRelu a row (ix2 i k) = rectified (a (ix2 i k)) (row (ix2 (0 : Fin 1) k)) := by
  unfold biasRelu rectified
  rw [maximumf_apply, addf_apply]
  have hb : broadcastInDim S100000x64 ![0, 1] bcast_S1x64_S100000x64_0_1 row (ix2 i k) = row (ix2 (0 : Fin 1) k) :=
    broadcastInDim_apply _ _ row (ix2 i k) (ix2 (0 : Fin 1) k) fun ax => by
      match ax with
      | ⟨0, _⟩ => rfl
      | ⟨1, _⟩ => rfl
  rw [hb]
  rfl

/-- A bias vector reshaped to a row is the vector broadcast along a new leading axis. -/
theorem asRow_eq (b : (⟨S64, .f32⟩ : BufTy).Contents (Elt Ideal)) (h : S64.ShapeCasts S1x64) :
    shapeCast S1x64 b h = asRow b := by
  funext y
  obtain ⟨u, k, rfl⟩ : ∃ (u : Fin 1) (k : Fin 64), y = ix2 u k := ⟨y 0, y 1, eq_ix2 y⟩
  unfold asRow
  rw [shapeCast_a_1a_apply]
  exact (broadcastInDim_apply _ _ b (ix2 u k) (ix1 k) fun ax => by
    match ax with
    | ⟨0, _⟩ => rfl).symm

/-- The one-entry bias reshaped to a 1×1 matrix is the entry broadcast along a new leading axis. -/
theorem asCell_eq (b : (⟨S1, .f32⟩ : BufTy).Contents (Elt Ideal)) (h : S1.ShapeCasts S1x1) :
    shapeCast S1x1 b h = broadcastInDim S1x1 ![1] bcast_S1_S1x1_1 b := by
  funext y
  obtain ⟨u, k, rfl⟩ : ∃ (u : Fin 1) (k : Fin 1), y = ix2 u k := ⟨y 0, y 1, eq_ix2 y⟩
  rw [shapeCast_a_1a_apply]
  exact (broadcastInDim_apply _ _ b (ix2 u k) (ix1 k) fun ax => by
    match ax with
    | ⟨0, _⟩ =>
      show k.val = if (1 : Nat) = 1 then 0 else _
      rw [if_pos rfl]; omega).symm

end Cert.GraphNet

end
-- ==== Proof.Layer2.lean ====
/-
  The second pallas_call, read as a value: whatever its three operand arrays hold when it is entered — the
  aggregated features, the bias row, the weight — its result array ends holding
  `max (features + bias, 0) · weight`.

  Point `t` of the ten is handed rows `10000·t …` of the features and the whole bias row and weight, adds the row to
  every feature row, clamps at zero, multiplies by the weight, and writes the block back as rows `10000·t …` of the
  result. Entry `(r, j)` of the block is the sum over `k` of `max (a[10000·t + r, k] + row[0, k], 0) · W[k, j]`, which
  is entry `(10000·t + r, j)` of the whole-array expression. The ten row blocks tile the result.
-/
import proofs.«116673_j82351702933640_1_alg».proof.Proof.Gen.KernelIdeal.Frame
import proofs.«116673_j82351702933640_1_alg».proof.Proof.Network
import proofs.«116673_j82351702933640_1_alg».proof.Proof.BiasRelu
import proofs.«116673_j82351702933640_1_alg».proof.Proof.LibPlainDot
import Idealize.ShloMosaic.Lib.Pipeline.Value
import Idealize.ShloMosaic.Lib.ValueIdx
import Idealize.ShloMosaic.Lib.ValueLayout

noncomputable section

open scoped BigOperators
open Idealize.ShloMosaic Idealize.ShloMosaic.TcCoe Idealize.SL.Sem Idealize.ShloMosaic.ValueIdx
open Idealize.ShloMosaic.Pipeline (Dat)

namespace Cert.KernelIdeal.Layer2

open Cert.KernelIdeal Cert.KernelIdeal.Gen

variable (V : (c : Dev nD) → (b : Ref sig .tc) → Buf (Elt Ideal) ((c : Thread nD τ).loc b))

theorem zeroOffsets : (![0, 0] : Fin 2 → Nat) = fun _ => 0 := funext fun a => by fin_cases a <;> rfl

/-- Row `r` of point `t`'s block is row `10000·t + r` of the array. -/
def rowOf (t : Fin cfg1.N) (r : Fin 10000) : Fin 100000 :=
  ⟨10000 * t.val + r.val, by have h : t.val < 10 := lt_of_lt_of_eq t.isLt N_1; have := r.isLt; omega⟩

/-- The block's result at an entry. -/
theorem block_apply (x0 : Vec Ideal S10000x64 .f32) (x1 : Vec Ideal S1x64 .f32) (x2 : Vec Ideal S64x64 .f32)
    (r : Fin 10000) (j : Fin 64) :
    k1_pay1 (F := Ideal) x0 x1 x2 (ix2 r j)
      = ∑ k : Fin 64, Cert.GraphNet.rectified (x0 (ix2 r k)) (x1 (ix2 (0 : Fin 1) k)) * x2 (ix2 k j) := by
  unfold k1_pay1
  refine (PlainMatmul.matmul_zero_apply (m := 10000) (k := 64) (n := 64) none _ _ r j).trans ?_
  refine Finset.sum_congr rfl fun k _ => ?_
  refine congrArg₂ (fun a b : EReal => a * b) ?_ rfl
  unfold Cert.GraphNet.rectified
  refine congrArg₂ (fun a b : EReal => max a b) (congrArg₂ (fun a b : EReal => a + b) ?_ ?_) rfl
  · rw [shapeCast_self]
  · rw [broadcastTo_1b_ab_apply, shapeCast_self]

/-- The whole-array expression at an entry. -/
theorem dense2_apply (a : Cert.GraphNet.Features) (row : (⟨Cert.ReferenceIdeal.S1x64, .f32⟩ : BufTy).Contents (Elt Ideal))
    (W : (⟨Cert.ReferenceIdeal.S64x64, .f32⟩ : BufTy).Contents (Elt Ideal)) (i : Fin 100000) (j : Fin 64) :
    Cert.GraphNet.dense2 a row W (ix2 i j)
      = ∑ k : Fin 64, Cert.GraphNet.rectified (a (ix2 i k)) (row (ix2 (0 : Fin 1) k)) * W (ix2 k j) := by
  refine (PlainDot.dotGeneral_apply_entry (m := 100000) (k := 64) (n := 64) none _ (Cert.GraphNet.biasRelu a row) W i j).trans ?_
  refine Finset.sum_congr rfl fun k _ => ?_
  rw [Cert.GraphNet.biasRelu_apply]

/-- Where each window's block sits at point `t`: the row-tiled ones at block row `t`, the others at the origin. -/
theorem blockIndices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of the whole-array expression of the arrays the call finds. -/
theorem flushed_eq (c : Dev nD) (t : Fin cfg1.N) :
    (dat1 V c).flushed 3 t
      = ((cfg1.win 3).blk t).view.read (Elt Ideal)
          (Cert.GraphNet.dense2 (V c main_v43) (V c main_v44) (V c main_arg4)) := by
  show (cfg1.win 3).cut (grid1.coords t) ((dat1 V c).after 3 t) = _
  rw [after1_3]
  unfold out1_3
  rw [View.canon_unit_zero zeroOffsets]
  simp only [View.ld_unit_zero (S := S10000x64) zeroOffsets, View.ld_unit_zero (S := S1x64) zeroOffsets,
    View.ld_unit_zero (S := S64x64) zeroOffsets]
  obtain ⟨e0, e1, e2, e3, e4, e5, e6, e7⟩ := blockIndices t
  funext y
  obtain ⟨r, j, rfl⟩ : ∃ (r : Fin 10000) (j : Fin 64), y = ix2 r j := ⟨y 0, y 1, eq_ix2 y⟩
  refine (block_apply _ _ _ r j).trans ?_
  have hout : ((cfg1.win 3).blk t).view.emb (ix2 r j) = ix2 (rowOf t r) j := by
    funext a; apply Fin.ext
    match a with
    | ⟨0, _⟩ => show win1_3.index t (0 : Fin 2) * 10000 + 1 * r.val = 10000 * t.val + r.val; omega
    | ⟨1, _⟩ => show win1_3.index t (1 : Fin 2) * 64 + 1 * j.val = j.val; omega
  rw [View.read_apply, hout, dense2_apply]
  refine Finset.sum_congr rfl fun k _ => ?_
  have h0 : ((cfg1.win 0).blk t).view.emb (ix2 r k) = ix2 (rowOf t r) k := by
    funext a; apply Fin.ext
    match a with
    | ⟨0, _⟩ => show win1_0.index t (0 : Fin 2) * 10000 + 1 * r.val = 10000 * t.val + r.val; omega
    | ⟨1, _⟩ => show win1_0.index t (1 : Fin 2) * 64 + 1 * k.val = k.val; omega
  have h1 : ((cfg1.win 1).blk t).view.emb (ix2 (0 : Fin 1) k) = ix2 (0 : Fin 1) k := by
    funext a; apply Fin.ext
    match a with
    | ⟨0, _⟩ => show win1_1.index t (0 : Fin 2) * 1 + 1 * 0 = 0; omega
    | ⟨1, _⟩ => show win1_1.index t (1 : Fin 2) * 64 + 1 * k.val = k.val; omega
  have h2 : ((cfg1.win 2).blk t).view.emb (ix2 k j) = ix2 k j := by
    funext a; apply Fin.ext
    match a with
    | ⟨0, _⟩ => show win1_2.index t (0 : Fin 2) * 64 + 1 * k.val = k.val; omega
    | ⟨1, _⟩ => show win1_2.index t (1 : Fin 2) * 64 + 1 * j.val = j.val; omega
  have ha : iblk1 V c 0 t (ix2 r k) = V c main_v43 (ix2 (rowOf t r) k) := by
    show V c main_v43 (((cfg1.win 0).blk t).view.emb (ix2 r k)) = _
    rw [h0]
  have hb : iblk1 V c 1 t (ix2 (0 : Fin 1) k) = V c main_v44 (ix2 (0 : Fin 1) k) := by
    show V c main_v44 (((cfg1.win 1).blk t).view.emb (ix2 (0 : Fin 1) k)) = _
    rw [h1]
  have hc : iblk1 V c 2 t (ix2 k j) = V c main_arg4 (ix2 k j) := by
    show V c main_arg4 (((cfg1.win 2).blk t).view.emb (ix2 k j)) = _
    rw [h2]
  rw [ha, hb, hc]

/-- An index of the result is in point `t`'s block iff its row is one of the block's rows. -/
theorem mem_block (t : Fin cfg1.N) (i : S100000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole main_v45).slice (win1_3.rect t)).set ↔ _
  rw [View.set_slice_whole, Rect.mem_set_unit]
  exact Iff.rfl

/-- The ten row blocks cover the result: row `i` is in block `i / 10000`. -/
theorem covered (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have hN : cfg1.N = 10 := N_1
  let t : Fin cfg1.N := ⟨(i 0).val / 10000, by rw [hN]; omega⟩
  obtain ⟨e0, e1, e2, e3, e4, e5, e6, e7⟩ := blockIndices t
  have e6' : win1_3.index t (0 : Fin 2) = (i 0).val / 10000 := e6
  refine ⟨t, flush1_3 t, ?_⟩
  rw [mem_block]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 64 ≤ (i 1).val ∧ (i 1).val < win1_3.index t (1 : Fin 2) * 64 + 64; omega

/-- **The second call's result**: bias, rectifier and weight applied to the arrays as the call finds them. -/
theorem result (c : Dev nD) :
    (dat1 V c).arrAt 3 cfg1.N = Cert.GraphNet.dense2 (V c main_v43) (V c main_v44) (V c main_arg4) :=
  (dat1 V c).arrAt_eq_of_cover 3 _ (fun t _ => flushed_eq V c t) covered

end Cert.KernelIdeal.Layer2

end
-- ==== Proof.Layer3.lean ====
/-
  The third pallas_call, read as a value: whatever its four operand arrays hold when it is entered — the aggregated
  features, the bias row, the weight column, the one-entry output bias — its result array ends holding
  `max (features + bias, 0) · weight + c`.

  Point `t` of the ten is handed rows `10000·t …` of the features and the other operands whole, and writes its block
  back as rows `10000·t …` of the one-column result. Entry `(r, 0)` of the block is the sum over `k` of
  `max (a[10000·t + r, k] + row[0, k], 0) · W[k, 0]`, plus `c[0, 0]`: entry `(10000·t + r, 0)` of the whole-array
  expression. The ten row blocks tile the result.
-/
import proofs.«116673_j82351702933640_1_alg».proof.Proof.Gen.KernelIdeal.Frame
import proofs.«116673_j82351702933640_1_alg».proof.Proof.Network
import proofs.«116673_j82351702933640_1_alg».proof.Proof.BiasRelu
import proofs.«116673_j82351702933640_1_alg».proof.Proof.LibPlainDot
import Idealize.ShloMosaic.Lib.Pipeline.Value
import Idealize.ShloMosaic.Lib.ValueIdx
import Idealize.ShloMosaic.Lib.ValueLayout

noncomputable section

open scoped BigOperators
open Idealize.ShloMosaic Idealize.ShloMosaic.TcCoe Idealize.SL.Sem Idealize.ShloMosaic.ValueIdx
open Idealize.ShloMosaic.Pipeline (Dat)

namespace Cert.KernelIdeal.Layer3

open Cert.KernelIdeal Cert.KernelIdeal.Gen

variable (V : (c : Dev nD) → (b : Ref sig .tc) → Buf (Elt Ideal) ((c : Thread nD τ).loc b))

theorem zeroOffsets : (![0, 0] : Fin 2 → Nat) = fun _ => 0 := funext fun a => by fin_cases a <;> rfl

/-- Row `r` of point `t`'s block is row `10000·t + r` of the array. -/
def rowOf (t : Fin cfg2.N) (r : Fin 10000) : Fin 100000 :=
  ⟨10000 * t.val + r.val, by have h : t.val < 10 := lt_of_lt_of_eq t.isLt N_2; have := r.isLt; omega⟩

/-- The block's result at an entry. -/
theorem block_apply (x0 : Vec Ideal S10000x64 .f32) (x1 : Vec Ideal S1x64 .f32) (x2 : Vec Ideal S64x1 .f32)
    (x3 : Vec Ideal S1x1 .f32) (r : Fin 10000) (j : Fin 1) :
    k2_pay1 (F := Ideal) x0 x1 x2 x3 (ix2 r j)
      = (∑ k : Fin 64, Cert.GraphNet.rectified (x0 (ix2 r k)) (x1 (ix2 (0 : Fin 1) k)) * x2 (ix2 k j))
        + x3 (ix2 (0 : Fin 1) j) := by
  unfold k2_pay1
  refine congrArg₂ (fun a b : EReal => a + b) ?_ ?_
  · refine (PlainMatmul.matmul_zero_apply (m := 10000) (k := 64) (n := 1) none _ _ r j).trans ?_
    refine Finset.sum_congr rfl fun k _ => ?_
    refine congrArg₂ (fun a b : EReal => a * b) ?_ rfl
    unfold Cert.GraphNet.rectified
    refine congrArg₂ (fun a b : EReal => max a b) (congrArg₂ (fun a b : EReal => a + b) ?_ ?_) rfl
    · rw [shapeCast_self]
    · rw [broadcastTo_1b_ab_apply, shapeCast_self]
  · rw [broadcastTo_1b_ab_apply, shapeCast_self]

/-- The whole-array expression at an entry. -/
theorem head_apply (a : Cert.GraphNet.Features) (row : (⟨Cert.ReferenceIdeal.S1x64, .f32⟩ : BufTy).Contents (Elt Ideal))
    (W : (⟨Cert.ReferenceIdeal.S64x1, .f32⟩ : BufTy).Contents (Elt Ideal))
    (b : (⟨Cert.ReferenceIdeal.S1x1, .f32⟩ : BufTy).Contents (Elt Ideal)) (i : Fin 100000) (j : Fin 1) :
    Cert.GraphNet.head a row W b (ix2 i j)
      = (∑ k : Fin 64, Cert.GraphNet.rectified (a (ix2 i k)) (row (ix2 (0 : Fin 1) k)) * W (ix2 k j))
        + b (ix2 (0 : Fin 1) j) := by
  unfold Cert.GraphNet.head
  refine congrArg₂ (fun a b : EReal => a + b) ?_ ?_
  · refine (PlainDot.dotGeneral_apply_entry (m := 100000) (k := 64) (n := 1) none _ (Cert.GraphNet.biasRelu a row) W i j).trans ?_
    refine Finset.sum_congr rfl fun k _ => ?_
    rw [Cert.GraphNet.biasRelu_apply]
  · exact broadcastInDim_apply _ _ b (ix2 i j) (ix2 (0 : Fin 1) j) fun ax => by
      match ax with
      | ⟨0, _⟩ => rfl
      | ⟨1, _⟩ =>
        show j.val = if (1 : Nat) = 1 then 0 else _
        rw [if_pos rfl]; omega

/-- Where each window's block sits at point `t`: the row-tiled ones at block row `t`, the others at the origin. -/
theorem blockIndices : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- What point `t` writes back is block `t` of the whole-array expression of the arrays the call finds. -/
theorem flushed_eq (c : Dev nD) (t : Fin cfg2.N) :
    (dat2 V c).flushed 4 t
      = ((cfg2.win 4).blk t).view.read (Elt Ideal)
          (Cert.GraphNet.head (V c main_v58) (V c main_v59) (V c main_arg6) (V c main_v60)) := by
  show (cfg2.win 4).cut (grid2.coords t) ((dat2 V c).after 4 t) = _
  rw [after2_4]
  unfold out2_4
  rw [View.canon_unit_zero zeroOffsets]
  simp only [View.ld_unit_zero (S := S10000x64) zeroOffsets, View.ld_unit_zero (S := S1x64) zeroOffsets,
    View.ld_unit_zero (S := S64x1) zeroOffsets, View.ld_unit_zero (S := S1x1) zeroOffsets]
  obtain ⟨e0, e1, e2, e3, e4, e5, e6, e7, e8, e9⟩ := blockIndices t
  funext y
  obtain ⟨r, j, rfl⟩ : ∃ (r : Fin 10000) (j : Fin 1), y = ix2 r j := ⟨y 0, y 1, eq_ix2 y⟩
  refine (block_apply _ _ _ _ r j).trans ?_
  have hj : j.val = 0 := by omega
  have hout : ((cfg2.win 4).blk t).view.emb (ix2 r j) = ix2 (rowOf t r) j := by
    funext a; apply Fin.ext
    match a with
    | ⟨0, _⟩ => show win2_4.index t (0 : Fin 2) * 10000 + 1 * r.val = 10000 * t.val + r.val; omega
    | ⟨1, _⟩ => show win2_4.index t (1 : Fin 2) * 1 + 1 * j.val = j.val; omega
  rw [View.read_apply, hout, head_apply]
  have h3 : ((cfg2.win 3).blk t).view.emb (ix2 (0 : Fin 1) j) = ix2 (0 : Fin 1) j := by
    funext a; apply Fin.ext
    match a with
    | ⟨0, _⟩ => show win2_3.index t (0 : Fin 2) * 1 + 1 * 0 = 0; omega
    | ⟨1, _⟩ => show win2_3.index t (1 : Fin 2) * 1 + 1 * j.val = j.val; omega
  have hd : iblk2 V c 3 t (ix2 (0 : Fin 1) j) = V c main_v60 (ix2 (0 : Fin 1) j) := by
    show V c main_v60 (((cfg2.win 3).blk t).view.emb (ix2 (0 : Fin 1) j)) = _
    rw [h3]
  rw [hd]
  refine congrArg₂ (fun a b : EReal => a + b) (Finset.sum_congr rfl fun k _ => ?_) rfl
  have h0 : ((cfg2.win 0).blk t).view.emb (ix2 r k) = ix2 (rowOf t r) k := by
    funext a; apply Fin.ext
    match a with
    | ⟨0, _⟩ => show win2_0.index t (0 : Fin 2) * 10000 + 1 * r.val = 10000 * t.val + r.val; omega
    | ⟨1, _⟩ => show win2_0.index t (1 : Fin 2) * 64 + 1 * k.val = k.val; omega
  have h1 : ((cfg2.win 1).blk t).view.emb (ix2 (0 : Fin 1) k) = ix2 (0 : Fin 1) k := by
    funext a; apply Fin.ext
    match a with
    | ⟨0, _⟩ => show win2_1.index t (0 : Fin 2) * 1 + 1 * 0 = 0; omega
    | ⟨1, _⟩ => show win2_1.index t (1 : Fin 2) * 64 + 1 * k.val = k.val; omega
  have h2 : ((cfg2.win 2).blk t).view.emb (ix2 k j) = ix2 k j := by
    funext a; apply Fin.ext
    match a with
    | ⟨0, _⟩ => show win2_2.index t (0 : Fin 2) * 64 + 1 * k.val = k.val; omega
    | ⟨1, _⟩ => show win2_2.index t (1 : Fin 2) * 1 + 1 * j.val = j.val; omega
  have ha : iblk2 V c 0 t (ix2 r k) = V c main_v58 (ix2 (rowOf t r) k) := by
    show V c main_v58 (((cfg2.win 0).blk t).view.emb (ix2 r k)) = _
    rw [h0]
  have hb : iblk2 V c 1 t (ix2 (0 : Fin 1) k) = V c main_v59 (ix2 (0 : Fin 1) k) := by
    show V c main_v59 (((cfg2.win 1).blk t).view.emb (ix2 (0 : Fin 1) k)) = _
    rw [h1]
  have hc : iblk2 V c 2 t (ix2 k j) = V c main_arg6 (ix2 k j) := by
    show V c main_arg6 (((cfg2.win 2).blk t).view.emb (ix2 k j)) = _
    rw [h2]
  rw [ha, hb, hc]

/-- An index of the result is in point `t`'s block iff its row is one of the block's rows. -/
theorem mem_block (t : Fin cfg2.N) (i : S100000x1.Idx) :
    i ∈ ((cfg2.win 4).blk t).view.set ↔ ∀ a : Fin 2, win2_4.index t a * S10000x1.size a ≤ (i a).val ∧ (i a).val < win2_4.index t a * S10000x1.size a + S10000x1.size a := by
  show i ∈ ((View.whole main_v61).slice (win2_4.rect t)).set ↔ _
  rw [View.set_slice_whole, Rect.mem_set_unit]
  exact Iff.rfl

/-- The ten row blocks cover the result: row `i` is in block `i / 10000`. -/
theorem covered (i : S100000x1.Idx) :
    ∃ t : Fin cfg2.N, (cfg2.win 4).flush t = true ∧ i ∈ ((cfg2.win 4).blk t).view.set := by
  have hi0 : (i 0).val < 100000 := (i 0).isLt
  have hi1 : (i 1).val < 1 := (i 1).isLt
  have hN : cfg2.N = 10 := N_2
  let t : Fin cfg2.N := ⟨(i 0).val / 10000, by rw [hN]; omega⟩
  obtain ⟨e0, e1, e2, e3, e4, e5, e6, e7, e8, e9⟩ := blockIndices t
  have e8' : win2_4.index t (0 : Fin 2) = (i 0).val / 10000 := e8
  refine ⟨t, flush2_4 t, ?_⟩
  rw [mem_block]
  intro a
  match a with
  | ⟨0, _⟩ => show win2_4.index t (0 : Fin 2) * 10000 ≤ (i 0).val ∧ (i 0).val < win2_4.index t (0 : Fin 2) * 10000 + 10000; omega
  | ⟨1, _⟩ => show win2_4.index t (1 : Fin 2) * 1 ≤ (i 1).val ∧ (i 1).val < win2_4.index t (1 : Fin 2) * 1 + 1; omega

/-- **The third call's result**: bias, rectifier, weight column and output bias applied to the arrays as the call
    finds them. -/
theorem result (c : Dev nD) :
    (dat2 V c).arrAt 4 cfg2.N
      = Cert.GraphNet.head (V c main_v58) (V c main_v59) (V c main_arg6) (V c main_v60) :=
  (dat2 V c).arrAt_eq_of_cover 4 _ (fun t _ => flushed_eq V c t) covered

end Cert.KernelIdeal.Layer3

end
-- ==== Proof.Through.lean ====
/-
  The kernel program's buffers from its first pallas_call to its return, one boundary at a time.

  Each pallas_call leaves its result array at the dense layer of the arrays it was entered with and every other buffer
  as it was. Each stretch of host operations between two calls propagates the call's result along the edges — with the
  edge lists and weights built before the first call, which nothing overwrites — and reshapes a bias vector into a
  row. Read in order, the result buffer ends holding the network of the eight argument arrays.
-/
import proofs.«116673_j82351702933640_1_alg».proof.Proof.Entry1
import proofs.«116673_j82351702933640_1_alg».proof.Proof.Layer1
import proofs.«116673_j82351702933640_1_alg».proof.Proof.Layer2
import proofs.«116673_j82351702933640_1_alg».proof.Proof.Layer3
import proofs.«116673_j82351702933640_1_alg».proof.Proof.BiasRelu

noncomputable section

namespace Cert.KernelIdeal.Walk

open Idealize.ShloMosaic Idealize.ShloMosaic.TcCoe Idealize.SL.Sem Idealize.ShloMosaic.StableHlo
open Cert.KernelIdeal Cert.KernelIdeal.Gen Cert.GraphNet

/-! ## The two stretches of host operations between the calls, over any buffer contents -/

section Stretches

variable (V : Valuation τ sig (Elt Ideal))

set_option maxHeartbeats 4000000 in
/-- The stretch after the first call propagates that call's result along the edges. -/
theorem stretch1_features : StableHlo.after hostOps1 V (Proc.devRef .tc main_v43)
    = propagate (V (Proc.devRef .tc main_v5)) (V (Proc.devRef .tc main_v6)) (V (Proc.devRef .tc main_v29)) (V (Proc.devRef .tc main_v30)) := by
  after_results <;> rfl

/-- … and reshapes the first bias into a row. -/
theorem stretch1_bias : StableHlo.after hostOps1 V (Proc.devRef .tc main_v44)
    = shapeCast S1x64 (V (Proc.devRef .tc main_arg3)) shapeCasts_S64_S1x64 := by
  after_results <;> rfl

theorem stretch1_keeps_main_v5 : StableHlo.after hostOps1 V (Proc.devRef .tc main_v5) = V (Proc.devRef .tc main_v5) := by
  after_results <;> rfl
theorem stretch1_keeps_main_v6 : StableHlo.after hostOps1 V (Proc.devRef .tc main_v6) = V (Proc.devRef .tc main_v6) := by
  after_results <;> rfl
theorem stretch1_keeps_main_v29 : StableHlo.after hostOps1 V (Proc.devRef .tc main_v29) = V (Proc.devRef .tc main_v29) := by
  after_results <;> rfl
theorem stretch1_keeps_main_arg4 : StableHlo.after hostOps1 V (Proc.devRef .tc main_arg4) = V (Proc.devRef .tc main_arg4) := by
  after_results <;> rfl
theorem stretch1_keeps_main_arg5 : StableHlo.after hostOps1 V (Proc.devRef .tc main_arg5) = V (Proc.devRef .tc main_arg5) := by
  after_results <;> rfl
theorem stretch1_keeps_main_arg6 : StableHlo.after hostOps1 V (Proc.devRef .tc main_arg6) = V (Proc.devRef .tc main_arg6) := by
  after_results <;> rfl
theorem stretch1_keeps_main_arg7 : StableHlo.after hostOps1 V (Proc.devRef .tc main_arg7) = V (Proc.devRef .tc main_arg7) := by
  after_results <;> rfl

set_option maxHeartbeats 4000000 in
/-- The stretch after the second call propagates that call's result along the edges. -/
theorem stretch2_features : StableHlo.after hostOps2 V (Proc.devRef .tc main_v58)
    = propagate (V (Proc.devRef .tc main_v5)) (V (Proc.devRef .tc main_v6)) (V (Proc.devRef .tc main_v29)) (V (Proc.devRef .tc main_v45)) := by
  after_results <;> rfl

/-- … and reshapes the second bias into a row and the output bias into a 1×1 matrix. -/
theorem stretch2_bias : StableHlo.after hostOps2 V (Proc.devRef .tc main_v59)
    = shapeCast S1x64 (V (Proc.devRef .tc main_arg5)) shapeCasts_S64_S1x64 := by
  after_results <;> rfl
theorem stretch2_cell : StableHlo.after hostOps2 V (Proc.devRef .tc main_v60)
    = shapeCast S1x1 (V (Proc.devRef .tc main_arg7)) shapeCasts_S1_S1x1 := by
  after_results <;> rfl
theorem stretch2_keeps_main_arg6 : StableHlo.after hostOps2 V (Proc.devRef .tc main_arg6) = V (Proc.devRef .tc main_arg6) := by
  after_results <;> rfl

end Stretches

variable (m : (ℓ : Loc nD τ sig) → Buf (Elt Ideal) ℓ) (ρ : Dev nD → PrngReg) (c : Dev nD)

/-! ## After the first call -/

theorem exit1_features : W4 m ρ c (Proc.devRef .tc main_v30) = (linear1 (m ((c : Thread nD τ).loc main_arg0)) (m ((c : Thread nD τ).loc main_arg2))) := by
  refine ((W4_arr m ρ c 2).trans (Layer1.result (V3 m ρ) c)).trans ?_
  show linear1 (W3 m ρ c (Proc.devRef .tc main_arg0)) (W3 m ρ c (Proc.devRef .tc main_arg2)) = _
  rw [entry1_arg0, entry1_arg2]

theorem exit1_sources : W4 m ρ c (Proc.devRef .tc main_v5) = (sources (m ((c : Thread nD τ).loc main_arg1))) :=
  (W4_of_ne m ρ c main_v5 (by decide)).trans (entry1_sources m ρ c)
theorem exit1_targets : W4 m ρ c (Proc.devRef .tc main_v6) = (targets (m ((c : Thread nD τ).loc main_arg1))) :=
  (W4_of_ne m ρ c main_v6 (by decide)).trans (entry1_targets m ρ c)
theorem exit1_weights : W4 m ρ c (Proc.devRef .tc main_v29) = (edgeWeights (sources (m ((c : Thread nD τ).loc main_arg1))) (targets (m ((c : Thread nD τ).loc main_arg1)))) :=
  (W4_of_ne m ρ c main_v29 (by decide)).trans (entry1_weights m ρ c)
theorem exit1_arg3 : W4 m ρ c (Proc.devRef .tc main_arg3) = m ((c : Thread nD τ).loc main_arg3) :=
  (W4_of_ne m ρ c main_arg3 (by decide)).trans (entry1_arg3 m ρ c)
theorem exit1_arg4 : W4 m ρ c (Proc.devRef .tc main_arg4) = m ((c : Thread nD τ).loc main_arg4) :=
  (W4_of_ne m ρ c main_arg4 (by decide)).trans (entry1_arg4 m ρ c)
theorem exit1_arg5 : W4 m ρ c (Proc.devRef .tc main_arg5) = m ((c : Thread nD τ).loc main_arg5) :=
  (W4_of_ne m ρ c main_arg5 (by decide)).trans (entry1_arg5 m ρ c)
theorem exit1_arg6 : W4 m ρ c (Proc.devRef .tc main_arg6) = m ((c : Thread nD τ).loc main_arg6) :=
  (W4_of_ne m ρ c main_arg6 (by decide)).trans (entry1_arg6 m ρ c)
theorem exit1_arg7 : W4 m ρ c (Proc.devRef .tc main_arg7) = m ((c : Thread nD τ).loc main_arg7) :=
  (W4_of_ne m ρ c main_arg7 (by decide)).trans (entry1_arg7 m ρ c)

/-! ## When the second call is entered -/

theorem entry2_features : W5 m ρ c (Proc.devRef .tc main_v43) = (propagate (sources (m ((c : Thread nD τ).loc main_arg1))) (targets (m ((c : Thread nD τ).loc main_arg1))) (edgeWeights (sources (m ((c : Thread nD τ).loc main_arg1))) (targets (m ((c : Thread nD τ).loc main_arg1)))) (linear1 (m ((c : Thread nD τ).loc main_arg0)) (m ((c : Thread nD τ).loc main_arg2)))) := by
  refine (stretch1_features (W4 m ρ c)).trans ?_
  rw [exit1_sources, exit1_targets, exit1_weights, exit1_features]

theorem entry2_bias : W5 m ρ c (Proc.devRef .tc main_v44) = asRow (m ((c : Thread nD τ).loc main_arg3)) := by
  refine (stretch1_bias (W4 m ρ c)).trans ?_
  rw [exit1_arg3]
  exact asRow_eq _ _

theorem entry2_sources : W5 m ρ c (Proc.devRef .tc main_v5) = (sources (m ((c : Thread nD τ).loc main_arg1))) :=
  (stretch1_keeps_main_v5 (W4 m ρ c)).trans (exit1_sources m ρ c)
theorem entry2_targets : W5 m ρ c (Proc.devRef .tc main_v6) = (targets (m ((c : Thread nD τ).loc main_arg1))) :=
  (stretch1_keeps_main_v6 (W4 m ρ c)).trans (exit1_targets m ρ c)
theorem entry2_weights : W5 m ρ c (Proc.devRef .tc main_v29) = (edgeWeights (sources (m ((c : Thread nD τ).loc main_arg1))) (targets (m ((c : Thread nD τ).loc main_arg1)))) :=
  (stretch1_keeps_main_v29 (W4 m ρ c)).trans (exit1_weights m ρ c)
theorem entry2_arg4 : W5 m ρ c (Proc.devRef .tc main_arg4) = m ((c : Thread nD τ).loc main_arg4) :=
  (stretch1_keeps_main_arg4 (W4 m ρ c)).trans (exit1_arg4 m ρ c)
theorem entry2_arg5 : W5 m ρ c (Proc.devRef .tc main_arg5) = m ((c : Thread nD τ).loc main_arg5) :=
  (stretch1_keeps_main_arg5 (W4 m ρ c)).trans (exit1_arg5 m ρ c)
theorem entry2_arg6 : W5 m ρ c (Proc.devRef .tc main_arg6) = m ((c : Thread nD τ).loc main_arg6) :=
  (stretch1_keeps_main_arg6 (W4 m ρ c)).trans (exit1_arg6 m ρ c)
theorem entry2_arg7 : W5 m ρ c (Proc.devRef .tc main_arg7) = m ((c : Thread nD τ).loc main_arg7) :=
  (stretch1_keeps_main_arg7 (W4 m ρ c)).trans (exit1_arg7 m ρ c)

/-! ## After the second call -/

theorem exit2_features : W6 m ρ c (Proc.devRef .tc main_v45) = (dense2 (propagate (sources (m ((c : Thread nD τ).loc main_arg1))) (targets (m ((c : Thread nD τ).loc main_arg1))) (edgeWeights (sources (m ((c : Thread nD τ).loc main_arg1))) (targets (m ((c : Thread nD τ).loc main_arg1)))) (linear1 (m ((c : Thread nD τ).loc main_arg0)) (m ((c : Thread nD τ).loc main_arg2)))) (asRow (m ((c : Thread nD τ).loc main_arg3))) (m ((c : Thread nD τ).loc main_arg4))) := by
  refine ((W6_arr m ρ c 3).trans (Layer2.result (V5 m ρ) c)).trans ?_
  show dense2 (W5 m ρ c (Proc.devRef .tc main_v43)) (W5 m ρ c (Proc.devRef .tc main_v44)) (W5 m ρ c (Proc.devRef .tc main_arg4)) = _
  rw [entry2_features, entry2_bias, entry2_arg4]

theorem exit2_sources : W6 m ρ c (Proc.devRef .tc main_v5) = (sources (m ((c : Thread nD τ).loc main_arg1))) :=
  (W6_of_ne m ρ c main_v5 (by decide)).trans (entry2_sources m ρ c)
theorem exit2_targets : W6 m ρ c (Proc.devRef .tc main_v6) = (targets (m ((c : Thread nD τ).loc main_arg1))) :=
  (W6_of_ne m ρ c main_v6 (by decide)).trans (entry2_targets m ρ c)
theorem exit2_weights : W6 m ρ c (Proc.devRef .tc main_v29) = (edgeWeights (sources (m ((c : Thread nD τ).loc main_arg1))) (targets (m ((c : Thread nD τ).loc main_arg1)))) :=
  (W6_of_ne m ρ c main_v29 (by decide)).trans (entry2_weights m ρ c)
theorem exit2_arg5 : W6 m ρ c (Proc.devRef .tc main_arg5) = m ((c : Thread nD τ).loc main_arg5) :=
  (W6_of_ne m ρ c main_arg5 (by decide)).trans (entry2_arg5 m ρ c)
theorem exit2_arg6 : W6 m ρ c (Proc.devRef .tc main_arg6) = m ((c : Thread nD τ).loc main_arg6) :=
  (W6_of_ne m ρ c main_arg6 (by decide)).trans (entry2_arg6 m ρ c)
theorem exit2_arg7 : W6 m ρ c (Proc.devRef .tc main_arg7) = m ((c : Thread nD τ).loc main_arg7) :=
  (W6_of_ne m ρ c main_arg7 (by decide)).trans (entry2_arg7 m ρ c)

/-! ## When the third call is entered -/

theorem entry3_features : W7 m ρ c (Proc.devRef .tc main_v58) = (propagate (sources (m ((c : Thread nD τ).loc main_arg1))) (targets (m ((c : Thread nD τ).loc main_arg1))) (edgeWeights (sources (m ((c : Thread nD τ).loc main_arg1))) (targets (m ((c : Thread nD τ).loc main_arg1)))) (dense2 (propagate (sources (m ((c : Thread nD τ).loc main_arg1))) (targets (m ((c : Thread nD τ).loc main_arg1))) (edgeWeights (sources (m ((c : Thread nD τ).loc main_arg1))) (targets (m ((c : Thread nD τ).loc main_arg1)))) (linear1 (m ((c : Thread nD τ).loc main_arg0)) (m ((c : Thread nD τ).loc main_arg2)))) (asRow (m ((c : Thread nD τ).loc main_arg3))) (m ((c : Thread nD τ).loc main_arg4)))) := by
  refine (stretch2_features (W6 m ρ c)).trans ?_
  rw [exit2_sources, exit2_targets, exit2_weights, exit2_features]

theorem entry3_bias : W7 m ρ c (Proc.devRef .tc main_v59) = asRow (m ((c : Thread nD τ).loc main_arg5)) := by
  refine (stretch2_bias (W6 m ρ c)).trans ?_
  rw [exit2_arg5]
  exact asRow_eq _ _

theorem entry3_cell : W7 m ρ c (Proc.devRef .tc main_v60)
    = broadcastInDim Cert.ReferenceIdeal.S1x1 ![1] Cert.ReferenceIdeal.Gen.bcast_S1_S1x1_1 (m ((c : Thread nD τ).loc main_arg7)) := by
  refine (stretch2_cell (W6 m ρ c)).trans ?_
  rw [exit2_arg7]
  exact asCell_eq _ _

theorem entry3_arg6 : W7 m ρ c (Proc.devRef .tc main_arg6) = m ((c : Thread nD τ).loc main_arg6) :=
  (stretch2_keeps_main_arg6 (W6 m ρ c)).trans (exit2_arg6 m ρ c)

/-! ## At the return -/

/-- **The result buffer ends holding the network of the argument arrays.** -/
theorem result : W8 m ρ c (Proc.devRef .tc main_v61)
    = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine ((W8_arr m ρ c 4).trans (Layer3.result (V7 m ρ) c)).trans ?_
  show head (W7 m ρ c (Proc.devRef .tc main_v58)) (W7 m ρ c (Proc.devRef .tc main_v59)) (W7 m ρ c (Proc.devRef .tc main_arg6))
      (W7 m ρ c (Proc.devRef .tc main_v60)) = _
  rw [entry3_features, entry3_bias, entry3_arg6, entry3_cell]
  rfl

end Cert.KernelIdeal.Walk

end
-- ==== Proof.RefNetwork.lean ====
/-
  The reference program computes the network: its result, one host operation at a time, is the network of its eight
  argument arrays. The reference builds the edge lists and the edge weights once per layer; both builds are the same
  terms of the edge array, and so is every other piece, so each stage is its piece of the network by unfolding.
-/
import proofs.«116673_j82351702933640_1_alg».proof.Proof.RefRead
import proofs.«116673_j82351702933640_1_alg».proof.Proof.Network

noncomputable section

namespace Cert.ReferenceIdeal.AsNetwork

open Idealize.ShloMosaic Cert.ReferenceIdeal Cert.ReferenceIdeal.Gen Cert.ReferenceIdeal.Read Cert.GraphNet

variable (x0 : (⟨S100000x128, .f32⟩ : BufTy).Contents (Elt Ideal)) (e : EdgeArray) (x2 : (⟨S128x64, .f32⟩ : BufTy).Contents (Elt Ideal)) (x3 : (⟨S64, .f32⟩ : BufTy).Contents (Elt Ideal))
  (x4 : (⟨S64x64, .f32⟩ : BufTy).Contents (Elt Ideal)) (x5 : (⟨S64, .f32⟩ : BufTy).Contents (Elt Ideal)) (x6 : (⟨S64x1, .f32⟩ : BufTy).Contents (Elt Ideal)) (x7 : (⟨S1, .f32⟩ : BufTy).Contents (Elt Ideal))

/-- The first layer's edge lists. -/
theorem sources₁ : val_main_v5 (F := Ideal) e = sources e := rfl
theorem targets₁ : val_main_v6 (F := Ideal) e = targets e := rfl
/-- The second layer's edge lists are the same terms. -/
theorem sources₂ : val_main_v53 (F := Ideal) e = sources e := rfl
theorem targets₂ : val_main_v54 (F := Ideal) e = targets e := rfl

/-- The first layer's edge weights, over its edge lists. -/
theorem weights₁ : val_main_v29 (F := Ideal) e = edgeWeights (val_main_v5 (F := Ideal) e) (val_main_v6 (F := Ideal) e) := rfl
/-- The second layer's. -/
theorem weights₂ : val_main_v77 (F := Ideal) e = edgeWeights (val_main_v53 (F := Ideal) e) (val_main_v54 (F := Ideal) e) := rfl

/-- The first linear map. -/
theorem linear₁ : val_main_v30 (F := Ideal) x0 x2 = linear1 x0 x2 := rfl

/-- The first propagation. -/
theorem propagate₁ : val_main_v43 (F := Ideal) x0 e x2
    = propagate (val_main_v5 (F := Ideal) e) (val_main_v6 (F := Ideal) e) (val_main_v29 (F := Ideal) e) (val_main_v30 (F := Ideal) x0 x2) := rfl

/-- The second layer's dense part. -/
theorem dense₂ : val_main_v78 (F := Ideal) x0 e x2 x3 x4 = dense2 (val_main_v43 (F := Ideal) x0 e x2) (asRow x3) x4 := rfl

/-- The second propagation. -/
theorem propagate₂ : val_main_v91 (F := Ideal) x0 e x2 x3 x4
    = propagate (val_main_v53 (F := Ideal) e) (val_main_v54 (F := Ideal) e) (val_main_v77 (F := Ideal) e) (val_main_v78 (F := Ideal) x0 e x2 x3 x4) := rfl

/-- The head. -/
theorem head₃ : val_main_v99 (F := Ideal) x0 e x2 x3 x4 x5 x6 x7
    = head (val_main_v91 (F := Ideal) x0 e x2 x3 x4) (asRow x5) x6 (broadcastInDim S1x1 ![1] bcast_S1_S1x1_1 x7) := rfl

/-- **The reference's result is the network of its arguments.** -/
theorem result_eq : val_main_v99 (F := Ideal) x0 e x2 x3 x4 x5 x6 x7 = network x0 e x2 x3 x4 x5 x6 x7 := by
  rw [head₃, propagate₂, dense₂, propagate₁, linear₁, weights₂, weights₁, sources₂, targets₂, sources₁, targets₁]
  rfl

end Cert.ReferenceIdeal.AsNetwork

end
-- ==== Proof.lean ====
/-
  A two-layer graph convolution with a linear head, as three row-tiled pallas_calls among host gathers and scatters,
  against the same network written with plain matrix products: equal results on the extended reals.

  Both programs build the same edge lists and edge weights from the edge array and propagate features along the
  edges with the same host operations; they differ only in the dense steps. The kernel program computes each dense
  step — a matrix product, preceded in the second and third by a bias and a rectifier and followed in the third by
  the output bias — block by block over ten row blocks, rounding the operands to bf16 on the way into the matrix unit;
  on the extended reals the rounding is the identity and a block of a product is the product's block, so each call's
  result is the whole-array dense step of what it was entered with. Chained through the program's buffers this makes
  the kernel's result the network of the eight arguments, which is also what the reference's operations compose to.
  No law of arithmetic beyond this is used, and the finiteness of the inputs is never needed.
-/
import proofs.«116673_j82351702933640_1_alg».proof.Defs
import proofs.«116673_j82351702933640_1_alg».proof.Proof.Gen.Kernel
import proofs.«116673_j82351702933640_1_alg».proof.Proof.Gen.Kernel.Frame
import proofs.«116673_j82351702933640_1_alg».proof.Proof.Gen.KernelIdeal
import proofs.«116673_j82351702933640_1_alg».proof.Proof.Gen.KernelIdeal.Frame
import proofs.«116673_j82351702933640_1_alg».proof.Proof.Gen.ReferenceIdeal
import proofs.«116673_j82351702933640_1_alg».proof.Proof.Gen.Pre_finite_inputs
import proofs.«116673_j82351702933640_1_alg».proof.Proof.KernelRun
import proofs.«116673_j82351702933640_1_alg».proof.Proof.Through
import proofs.«116673_j82351702933640_1_alg».proof.Proof.RefNetwork
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the idealized reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs end with the network of the argument arrays in their result buffers. -/
theorem algebraic : Cert.algebraic_KernelIdeal_ReferenceIdeal := by
  intro m ρ m' ρ' _ hagree
  refine ⟨fun c => Cert.GraphNet.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.Walk.result m ρ c), (h c).2⟩)
      (Cert.KernelIdeal.Whole.run (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7⟩ := hagree c
    rw [Cert.ReferenceIdeal.Read.val_main_v99_eq, Cert.ReferenceIdeal.AsNetwork.result_eq, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
